-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128x128 .f32) (main_arg3 : FVec F S128 .f32) (main_arg4 : FVec F S128x128 .f32) (main_arg5 : FVec F S128x128 .f32) (main_arg6 : FVec F S128 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 52
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S1x128, .f32⟩
  | .hbm, ⟨51, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x1, .f32⟩
  | .local _ .vmem, ⟨16, _⟩ => ⟨S10000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S1600000, .f32⟩
  | .hbm, ⟨45, _⟩ => ⟨S_, .f32⟩
  | .hbm, ⟨46, _⟩ => ⟨S100000, .f32⟩
  | .hbm, ⟨47, _⟩ => ⟨S1600000x1, .i32⟩
  | .hbm, ⟨48, _⟩ => ⟨S100000, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with its RESULT named.

  The program is four segments: host operations, the first layer's grid, host operations, the second layer's grid.
  The buffer contents at each boundary are a fold from the launch memory: `W1` after the first host stretch, `W2` after
  the first grid (its output array at what the ten blocks' write-backs leave), `W3` after the second host stretch, `W4`
  after the second grid. Every weakly fair execution terminates without a fault with every unscoped buffer at `W4`;
  read at the result buffer and at the nine arguments this is the statement below.
-/
import proofs.«169644_j72232759984607_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W4` and the arguments as launched. -/
theorem run_result : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Run

end
-- ==== Proof.KernelHost.lean ====
/-
  The host operations of the idealized kernel program, read as functions of the arguments.

  Before the first grid the host computes, from the edge lists, the clamped in-degree `d = max(deg, 1)` (a scatter-add
  of ones, then the maximum with one), its reciprocal `1 / d` as a column, and the neighbour sum of the inputs (a gather
  of source rows scattered and added at the destinations); it also lays the first bias out as a row. Between the grids
  it forms the neighbour sum of the first grid's output by the same gather and scatter-add, and lays out the second
  bias. Each chain is named here as ONE function of what goes in; nothing below opens a gather or a scatter.
  Then: what each window's array holds when its grid is entered.
-/
import proofs.«169644_j72232759984607_2_alg».proof.Proof.Gen.KernelIdeal.Frame
import Idealize.ShloMosaic.Lib.StableHlo.Run

set_option maxRecDepth 16384

noncomputable section

namespace Cert.KernelIdeal.HostVal

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]

/-- The clamped in-degree: ones scattered and added at the destinations, then the maximum with one. -/
def degOf (dst : (⟨S1600000, .i32⟩ : BufTy).Contents (Elt F)) : (⟨S100000, .f32⟩ : BufTy).Contents (Elt F) :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- The reciprocal of the clamped in-degree, as a column. -/
def recipOf (dst : (⟨S1600000, .i32⟩ : BufTy).Contents (Elt F)) : (⟨S100000x1, .f32⟩ : BufTy).Contents (Elt F) :=
  shapeCast S100000x1
    (Host.divf (broadcastInDim S100000 ![] bcast_S_S100000 (constant S_ .f32 0x3F800000#32)) (degOf dst))
    shapeCasts_S100000_S100000x1

/-- The neighbour sum of features `h`: the source rows (a negative source index wrapped once) gathered, then scattered
    and added at the destinations into zeros. -/
def aggOf (h : (⟨S100000x128, .f32⟩ : BufTy).Contents (Elt F)) (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- A bias laid out as a one-row matrix. -/
def biasRow (b : (⟨S128, .f32⟩ : BufTy).Contents (Elt F)) : (⟨S1x128, .f32⟩ : BufTy).Contents (Elt F) :=
  shapeCast S1x128 b shapeCasts_S128_S1x128

variable (m : (ℓ : Loc nD τ sig) → Buf (Elt F) ℓ) (ρ : Dev nD → PrngReg)

/-! ## At the first grid's entry -/

theorem V1_arg0 (c : Dev nD) : V1 m ρ c main_arg0 = (m ((c.tc : Thread nD τ).loc main_arg0)) := by
  show StableHlo.after hostOps0 (W0 m ρ c) (Proc.devRef .tc main_arg0) = _
  after_results
theorem V1_arg1 (c : Dev nD) : V1 m ρ c main_arg1 = (m ((c.tc : Thread nD τ).loc main_arg1)) := by
  show StableHlo.after hostOps0 (W0 m ρ c) (Proc.devRef .tc main_arg1) = _
  after_results
theorem V1_arg2 (c : Dev nD) : V1 m ρ c main_arg2 = (m ((c.tc : Thread nD τ).loc main_arg2)) := by
  show StableHlo.after hostOps0 (W0 m ρ c) (Proc.devRef .tc main_arg2) = _
  after_results
set_option maxHeartbeats 4000000 in
theorem V1_agg (c : Dev nD) : V1 m ρ c main_v18 = aggOf (m ((c.tc : Thread nD τ).loc main_arg0)) (m ((c.tc : Thread nD τ).loc main_arg7)) (m ((c.tc : Thread nD τ).loc main_arg8)) := by
  show StableHlo.after hostOps0 (W0 m ρ c) (Proc.devRef .tc main_v18) = _
  after_results_simp
  unfold aggOf
  rfl
set_option maxHeartbeats 4000000 in
theorem V1_recip (c : Dev nD) : V1 m ρ c main_v8 = recipOf (m ((c.tc : Thread nD τ).loc main_arg8)) := by
  show StableHlo.after hostOps0 (W0 m ρ c) (Proc.devRef .tc main_v8) = _
  after_results_simp
  unfold recipOf degOf
  rfl
set_option maxHeartbeats 4000000 in
theorem V1_bias (c : Dev nD) : V1 m ρ c main_v19 = biasRow (m ((c.tc : Thread nD τ).loc main_arg3)) := by
  show StableHlo.after hostOps0 (W0 m ρ c) (Proc.devRef .tc main_v19) = _
  after_results_simp
  unfold biasRow
  rfl

/-! ## Across the first grid: what it does not write keeps its contents -/

theorem W2_arg4 (c : Dev nD) : W2 m ρ c (Proc.devRef .tc main_arg4) = (m ((c.tc : Thread nD τ).loc main_arg4)) :=
  (W2_of_ne m ρ c main_arg4 (by decide)).trans (by
    show StableHlo.after hostOps0 (W0 m ρ c) (Proc.devRef .tc main_arg4) = _
    after_results)
theorem W2_arg5 (c : Dev nD) : W2 m ρ c (Proc.devRef .tc main_arg5) = (m ((c.tc : Thread nD τ).loc main_arg5)) :=
  (W2_of_ne m ρ c main_arg5 (by decide)).trans (by
    show StableHlo.after hostOps0 (W0 m ρ c) (Proc.devRef .tc main_arg5) = _
    after_results)
theorem W2_arg6 (c : Dev nD) : W2 m ρ c (Proc.devRef .tc main_arg6) = (m ((c.tc : Thread nD τ).loc main_arg6)) :=
  (W2_of_ne m ρ c main_arg6 (by decide)).trans (by
    show StableHlo.after hostOps0 (W0 m ρ c) (Proc.devRef .tc main_arg6) = _
    after_results)
theorem W2_arg7 (c : Dev nD) : W2 m ρ c (Proc.devRef .tc main_arg7) = (m ((c.tc : Thread nD τ).loc main_arg7)) :=
  (W2_of_ne m ρ c main_arg7 (by decide)).trans (by
    show StableHlo.after hostOps0 (W0 m ρ c) (Proc.devRef .tc main_arg7) = _
    after_results)
theorem W2_arg8 (c : Dev nD) : W2 m ρ c (Proc.devRef .tc main_arg8) = (m ((c.tc : Thread nD τ).loc main_arg8)) :=
  (W2_of_ne m ρ c main_arg8 (by decide)).trans (by
    show StableHlo.after hostOps0 (W0 m ρ c) (Proc.devRef .tc main_arg8) = _
    after_results)
/-- The reciprocal column is an input of the first grid: read, never written. -/
theorem W2_recip (c : Dev nD) : W2 m ρ c (Proc.devRef .tc main_v8) = recipOf (m ((c.tc : Thread nD τ).loc main_arg8)) :=
  ((W2_arr m ρ c 2).trans (((dat0 (V1 m ρ) c).arrAt_in 2 rfl _).trans (A_eq0 (V1 m ρ) c 2))).trans (V1_recip m ρ c)

/-! ## At the second grid's entry -/

/-- The hidden features: the first grid's output array. -/
theorem V3_hidden (c : Dev nD) : V3 m ρ c main_v20 = (dat0 (V1 m ρ) c).arrAt 6 cfg0.N := by
  show StableHlo.after hostOps1 (W2 m ρ c) (Proc.devRef .tc main_v20) = _
  after_results
  exact W2_arr m ρ c 6
theorem V3_arg4 (c : Dev nD) : V3 m ρ c main_arg4 = (m ((c.tc : Thread nD τ).loc main_arg4)) := by
  show StableHlo.after hostOps1 (W2 m ρ c) (Proc.devRef .tc main_arg4) = _
  after_results
  exact W2_arg4 m ρ c
theorem V3_arg5 (c : Dev nD) : V3 m ρ c main_arg5 = (m ((c.tc : Thread nD τ).loc main_arg5)) := by
  show StableHlo.after hostOps1 (W2 m ρ c) (Proc.devRef .tc main_arg5) = _
  after_results
  exact W2_arg5 m ρ c
theorem V3_recip (c : Dev nD) : V3 m ρ c main_v8 = recipOf (m ((c.tc : Thread nD τ).loc main_arg8)) := by
  show StableHlo.after hostOps1 (W2 m ρ c) (Proc.devRef .tc main_v8) = _
  after_results
  exact W2_recip m ρ c
/-- The second neighbour sum, of whatever the buffers hold after the first grid. -/
theorem V3_agg_raw (c : Dev nD) : StableHlo.after hostOps1 (W2 m ρ c) (Proc.devRef .tc main_v30)
    = aggOf (W2 m ρ c (Proc.devRef .tc main_v20)) (W2 m ρ c (Proc.devRef .tc main_arg7)) (W2 m ρ c (Proc.devRef .tc main_arg8)) := by
  after_results
  unfold aggOf
  rfl
theorem V3_agg (c : Dev nD) : V3 m ρ c main_v30
    = aggOf ((dat0 (V1 m ρ) c).arrAt 6 cfg0.N) (m ((c.tc : Thread nD τ).loc main_arg7)) (m ((c.tc : Thread nD τ).loc main_arg8)) :=
  (V3_agg_raw m ρ c).trans (by
    rw [W2_arg7 m ρ c, W2_arg8 m ρ c, (W2_arr m ρ c 6 : W2 m ρ c (Proc.devRef .tc main_v20) = _)])
theorem V3_bias (c : Dev nD) : V3 m ρ c main_v31 = biasRow (m ((c.tc : Thread nD τ).loc main_arg6)) := by
  show StableHlo.after hostOps1 (W2 m ρ c) (Proc.devRef .tc main_v31) = _
  after_results
  rw [W2_arg6 m ρ c]
  unfold biasRow
  rfl

end Cert.KernelIdeal.HostVal

end
-- ==== Proof.Payload.lean ====
/-
  The grid body's arithmetic at one entry of its output block.

  At row `p` (of the block's 10000), feature `q` (of 128) the body computes

      (∑ₖ x0[p,k] · x3[k,q]  +  ∑ₖ (x1[p,k] · x2[p,0]) · x4[k,q])  +  x5[0,q]

  from its six loaded blocks: each matrix product into a zero accumulator is the plain sum over the contracted
  axis, the per-row scale `x2` is broadcast along the features and the bias row `x5` along the rows. The first
  layer's body applies `max(·, 0)` on top; the second layer's does not.
-/
import proofs.«169644_j72232759984607_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Idealize.ShloMosaic Idealize.ShloMosaic.ValueIdx
open Cert.KernelIdeal Cert.KernelIdeal.Gen

/-- The left operand's row coordinate at an output entry is the entry's row. -/
theorem lhs_row (i : S10000x128.Idx) (κ : dot_S10000x128_S128x128_S10000x128_1_0_0_1_n_n.contr.Idx) : (dot_S10000x128_S128x128_S10000x128_1_0_0_1_n_n.lhsIdx i κ 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- The right operand's column coordinate at an output entry is the entry's column. -/
theorem rhs_col (i : S10000x128.Idx) (κ : dot_S10000x128_S128x128_S10000x128_1_0_0_1_n_n.contr.Idx) : (dot_S10000x128_S128x128_S10000x128_1_0_0_1_n_n.rhsIdx i κ 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- A block times a weight matrix into a zero accumulator, at row `p`, column `q`: the sum over the 128 contracted
    positions of the row's entry times the column's. -/
theorem matmul_zero_at (l : FVec Ideal S10000x128 .f32) (r : FVec Ideal S128x128 .f32) (p : Fin 10000) (q : Fin 128) :
    matmul (F := Ideal) dot_S10000x128_S128x128_S10000x128_1_0_0_1_n_n none l r (constant S10000x128 .f32 0x00000000#32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (dot_S10000x128_S128x128_S10000x128_1_0_0_1_n_n.lhsIdx_val_of_single rfl _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl _ _).trans hk
    | ⟨1, _⟩ => exact rhs_col _ _)
  rw [el, er]

/-- A column of per-row values broadcast along the features, at row `p`: the row's value. -/
theorem bcast_col_at (v : Vec Ideal S10000x1 .f32) (h : S10000x1.Broadcasts S10000x128) (p : Fin 10000) (q : Fin 128) :
    broadcastTo S10000x128 v h (ix2 p q) = v (ix2 p (0 : Fin 1)) :=
  broadcastTo_apply v h (ix2 p q) (ix2 p (0 : Fin 1)) (fun a => match a with
    | ⟨0, _⟩ => by show p.val = if (10000 : Nat) = 1 then 0 else p.val; rw [if_neg (by decide)]
    | ⟨1, _⟩ => by show 0 = if (1 : Nat) = 1 then 0 else q.val; rw [if_pos rfl])

/-- A row of per-feature values broadcast along the rows, at feature `q`: the feature's value. -/
theorem bcast_row_at (v : Vec Ideal S1x128 .f32) (h : S1x128.Broadcasts S10000x128) (p : Fin 10000) (q : Fin 128) :
    broadcastTo S10000x128 v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The second layer's body at an entry. -/
theorem pay_plain_at (x0 x1 : Vec Ideal S10000x128 .f32) (x2 : Vec Ideal S10000x1 .f32) (x3 x4 : Vec Ideal S128x128 .f32)
    (x5 : Vec Ideal S1x128 .f32) (p : Fin 10000) (q : Fin 128) :
    k1_pay1 x0 x1 x2 x3 x4 x5 (ix2 p q)
      = (∑ k : Fin 128, x0 (ix2 p k) * x3 (ix2 k q) + ∑ k : Fin 128, (x1 (ix2 p k) * x2 (ix2 p (0 : Fin 1))) * x4 (ix2 k q))
          + x5 (ix2 (0 : Fin 1) q) := by
  unfold k1_pay1
  simp only [shapeCast_self, addf_apply]
  rw [matmul_zero_at, matmul_zero_at, bcast_row_at]
  have e : ∀ k : Fin 128, broadcastTo S10000x128 x2 broadcasts_S10000x1_S10000x128 (ix2 p k) = x2 (ix2 p (0 : Fin 1)) :=
    fun k => bcast_col_at x2 _ p k
  simp only [mulf_apply, e]

/-- The first layer's body at an entry: the same, rectified. -/
theorem pay_relu_at (x0 x1 : Vec Ideal S10000x128 .f32) (x2 : Vec Ideal S10000x1 .f32) (x3 x4 : Vec Ideal S128x128 .f32)
    (x5 : Vec Ideal S1x128 .f32) (p : Fin 10000) (q : Fin 128) :
    k0_pay1 x0 x1 x2 x3 x4 x5 (ix2 p q)
      = max ((∑ k : Fin 128, x0 (ix2 p k) * x3 (ix2 k q) + ∑ k : Fin 128, (x1 (ix2 p k) * x2 (ix2 p (0 : Fin 1))) * x4 (ix2 k q))
          + x5 (ix2 (0 : Fin 1) q)) 0 := by
  unfold k0_pay1
  simp only [shapeCast_self, maximumf_apply, addf_apply, broadcast_apply]
  rw [matmul_zero_at, matmul_zero_at, bcast_row_at]
  have e : ∀ k : Fin 128, broadcastTo S10000x128 x2 broadcasts_S10000x1_S10000x128 (ix2 p k) = x2 (ix2 p (0 : Fin 1)) :=
    fun k => bcast_col_at x2 _ p k
  simp only [mulf_apply, e]
  congr 1
  show Ideal.ofBits .f32 0x00000000#32 = 0
  exact Ideal.ofBits_zero_f32

end Cert.KernelIdeal.Body

end
-- ==== Proof.Layer.lean ====
/-
  One mean-aggregation graph layer as a function of arrays, and the law that joins its two spellings.

  For node features `h` (100000 rows of 128), a per-node MEAN of neighbour features `M` (same shape), two
  128 × 128 weight matrices and a bias row, the layer's value at node `p`, output feature `q` is

      (∑ₖ h[p,k] · Wself[k,q]  +  ∑ₖ M[p,k] · Wneigh[k,q])  +  b[q].

  The two programs differ only in how the mean is formed from the neighbour SUM `A` and the clamped in-degree
  `d = max(deg, 1)`: one multiplies by the reciprocal `1 / d` computed once per node, the other divides by `d`.
  On the extended reals the quotient by a nonzero `d` is the product with `d⁻¹`, and `1 / d = d⁻¹`, so
  `a · (1 / d) = a / d` for every `a`, infinite or not; and `d ≥ 1` is never zero. No finiteness is used.
-/
import Idealize.ShloMosaic.PureOps.Ideal
import Idealize.ShloMosaic.PureOps.Ideal.Laws
import Idealize.ShloMosaic.Lib.ValueIdx
import Idealize.ShloMosaic.Lib.IdealHost

noncomputable section

namespace Cert.Sage

open Idealize.ShloMosaic Idealize.ShloMosaic.ValueIdx

/-- Node features: 100000 nodes, 128 features each. -/
abbrev Feat : Type := (⟨2, ![100000, 128]⟩ : Shape).Idx → EReal
/-- A 128 × 128 weight matrix. -/
abbrev Wt : Type := (⟨2, ![128, 128]⟩ : Shape).Idx → EReal

/-- The node an entry of a feature array belongs to, and its feature. -/
def nodeOf (j : (⟨2, ![100000, 128]⟩ : Shape).Idx) : Fin 100000 := ⟨(j 0).val, idx2_lt0 j⟩
def featOf (j : (⟨2, ![100000, 128]⟩ : Shape).Idx) : Fin 128 := ⟨(j 1).val, idx2_lt1 j⟩
theorem nodeOf_ix2 (p : Fin 100000) (q : Fin 128) : nodeOf (ix2 p q) = p := rfl
theorem featOf_ix2 (p : Fin 100000) (q : Fin 128) : featOf (ix2 p q) = q := rfl

/-- The layer at node `p`, output feature `q`: self term plus neighbour term plus bias. -/
def layerAt (h M : Feat) (Ws Wn : Wt) (b : Fin 128 → EReal) (p : Fin 100000) (q : Fin 128) : EReal :=
  (∑ k : Fin 128, h (ix2 p k) * Ws (ix2 k q) + ∑ k : Fin 128, M (ix2 p k) * Wn (ix2 k q)) + b q

/-- The layer as a whole array. -/
def layer (h M : Feat) (Ws Wn : Wt) (b : Fin 128 → EReal) : Feat :=
  fun i => layerAt h M Ws Wn b (nodeOf i) (featOf i)

/-- The layer followed by the rectifier `max(·, 0)`. -/
def layerRelu (h M : Feat) (Ws Wn : Wt) (b : Fin 128 → EReal) : Feat :=
  fun i => max (layerAt h M Ws Wn b (nodeOf i) (featOf i)) 0

theorem layer_apply (h M : Feat) (Ws Wn : Wt) (b : Fin 128 → EReal) (p : Fin 100000) (q : Fin 128) :
    layer h M Ws Wn b (ix2 p q) = layerAt h M Ws Wn b p q := rfl
theorem layerRelu_apply (h M : Feat) (Ws Wn : Wt) (b : Fin 128 → EReal) (p : Fin 100000) (q : Fin 128) :
    layerRelu h M Ws Wn b (ix2 p q) = max (layerAt h M Ws Wn b p q) 0 := rfl

/-- The mean formed by the reciprocal: neighbour sum times `1 / d`, `d` per node. -/
def meanByRecip (A : Feat) (d : Fin 100000 → EReal) : Feat :=
  fun j => A j * Ideal.div 1 (d (nodeOf j))

/-- The mean formed by the quotient: neighbour sum divided by `d`, `d` per node. -/
def meanByQuot (A : Feat) (d : Fin 100000 → EReal) : Feat :=
  fun j => Ideal.div (A j) (d (nodeOf j))

theorem meanByQuot_apply (A : Feat) (d : Fin 100000 → EReal) (p : Fin 100000) (k : Fin 128) :
    meanByQuot A d (ix2 p k) = Ideal.div (A (ix2 p k)) (d p) := rfl

/-- The neighbour sum scaled node by node by a column of per-node factors. -/
def scaled (A : Feat) (f : (⟨2, ![100000, 1]⟩ : Shape).Idx → EReal) : Feat :=
  fun j => A j * f (ix2 (nodeOf j) (0 : Fin 1))

theorem scaled_apply (A : Feat) (f : (⟨2, ![100000, 1]⟩ : Shape).Idx → EReal) (p : Fin 100000) (k : Fin 128) :
    scaled A f (ix2 p k) = A (ix2 p k) * f (ix2 p (0 : Fin 1)) := rfl

/-- A bias kept as a one-row matrix, read as a function of the feature. -/
def rowOf (b : (⟨2, ![1, 128]⟩ : Shape).Idx → EReal) : Fin 128 → EReal :=
  fun q => b (ix2 (0 : Fin 1) q)

theorem rowOf_apply (b : (⟨2, ![1, 128]⟩ : Shape).Idx → EReal) (q : Fin 128) : rowOf b q = b (ix2 (0 : Fin 1) q) := rfl

/-- Scaling by a column that holds the reciprocals `1 / d` is the mean formed by the reciprocal. -/
theorem scaled_eq_meanByRecip (A : Feat) (f : (⟨2, ![100000, 1]⟩ : Shape).Idx → EReal) (d : Fin 100000 → EReal)
    (hf : ∀ r : Fin 100000, f (ix2 r (0 : Fin 1)) = Ideal.div 1 (d r)) : scaled A f = meanByRecip A d := by
  funext j
  unfold scaled meanByRecip
  rw [hf]

/-- Multiplying by the reciprocal of a nonzero extended real is dividing by it. -/
theorem mul_recip_eq_div (a d : EReal) (hd : d ≠ 0) : a * Ideal.div 1 d = Ideal.div a d := by
  unfold Ideal.div
  rw [if_neg hd, if_neg hd, one_mul]

/-- A value clamped below by one is not zero. -/
theorem max_one_ne_zero (x : EReal) : max x 1 ≠ 0 :=
  (lt_of_lt_of_le zero_lt_one (le_max_right x 1)).ne'

/-- With a clamped degree the two means are one array. -/
theorem meanByRecip_eq_meanByQuot (A : Feat) (deg : Fin 100000 → EReal) :
    meanByRecip A (fun r => max (deg r) 1) = meanByQuot A (fun r => max (deg r) 1) := by
  funext j
  exact mul_recip_eq_div _ _ (max_one_ne_zero _)

end Cert.Sage

end
-- ==== Proof.Blocks0.lean ====
/-
  The first layer's grid: what its output array holds once the ten blocks are written back.

  The grid has ten points; point `t` works on rows `10000·t … 10000·t + 9999` of the node features, of the neighbour
  sums and of the per-node reciprocal, on the whole of both weight matrices and of the bias row, and writes the same
  rows of the output. An entry `(p, q)` of point `t`'s block is therefore the layer's value at node `10000·t + p`,
  feature `q`, of the arrays as the grid finds them; the ten blocks tile the output, so the output array ends holding
  the layer of those arrays, entry by entry. Stated for ANY contents `V` of the buffers at the grid's entry.
-/
import proofs.«169644_j72232759984607_2_alg».proof.Proof.Gen.KernelIdeal.Frame
import proofs.«169644_j72232759984607_2_alg».proof.Proof.Payload
import proofs.«169644_j72232759984607_2_alg».proof.Proof.Layer
import Idealize.ShloMosaic.Lib.Pipeline.Value

set_option maxRecDepth 16384

noncomputable section

namespace Cert.KernelIdeal.Blocks0

open Idealize.ShloMosaic Idealize.ShloMosaic.TcCoe Idealize.ShloMosaic.ValueIdx Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the three row-blocked inputs move with the output, whose block index is the
    point's number; the weights and the bias sit at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The layer of the arrays as the grid finds them: the mean is the neighbour sum times the per-node factor. -/
abbrev G (c : Dev nD) : S100000x128.Idx → EReal :=
  layerRelu (V c main_arg0) (scaled (V c main_v18) (V c main_v8)) (V c main_arg1) (V c main_arg2)
    (rowOf (V c main_v19))

/-- One entry of a block, over any six loaded blocks that are the stated rows of whole arrays. -/
theorem entry_eq (h A : Feat) (inv : S100000x1.Idx → EReal) (Ws Wn : Wt) (brow : S1x128.Idx → EReal)
    (x0 x1 : Vec Ideal S10000x128 .f32) (x2 : Vec Ideal S10000x1 .f32) (x3 x4 : Vec Ideal S128x128 .f32) (x5 : Vec Ideal S1x128 .f32)
    (r : Fin 100000) (p : Fin 10000) (q : Fin 128)
    (h0 : ∀ k : Fin 128, x0 (ix2 p k) = h (ix2 r k)) (h1 : ∀ k : Fin 128, x1 (ix2 p k) = A (ix2 r k))
    (h2 : x2 (ix2 p (0 : Fin 1)) = inv (ix2 r (0 : Fin 1)))
    (h3 : ∀ k : Fin 128, x3 (ix2 k q) = Ws (ix2 k q)) (h4 : ∀ k : Fin 128, x4 (ix2 k q) = Wn (ix2 k q))
    (h5 : x5 (ix2 (0 : Fin 1) q) = brow (ix2 (0 : Fin 1) q)) :
    k0_pay1 x0 x1 x2 x3 x4 x5 (ix2 p q)
      = layerRelu h (scaled A inv) Ws Wn (rowOf brow) (ix2 r q) := by
  rw [Body.pay_relu_at, layerRelu_apply]
  simp only [layerAt, scaled_apply, rowOf_apply, h0, h1, h2, h3, h4, h5]

/-- What point `t` writes back is block `t` of the layer of the arrays as the grid finds them. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S10000x128) hz, View.ld_unit_zero (S := S10000x1) hz,
    View.ld_unit_zero (S := S128x128) hz, View.ld_unit_zero (S := S1x128) hz]
  obtain ⟨e00, e01, e10, e11, e20, e21, e30, e31, e40, e41, e50, e51, e60, e61⟩ := idx_facts t
  have ht : t.val < 10 := by have := t.isLt; have hN : cfg0.N = 10 := N_0; omega
  funext y
  obtain ⟨p, q, rfl⟩ : ∃ (p : Fin 10000) (q : Fin 128), y = ix2 p q := ⟨y 0, y 1, eq_ix2 y⟩
  have hp : p.val < 10000 := p.isLt
  show k0_pay1 (iblk0 V c 0 t) (iblk0 V c 1 t) (iblk0 V c 2 t) (iblk0 V c 3 t) (iblk0 V c 4 t) (iblk0 V c 5 t) (ix2 p q)
    = G V c (((cfg0.win 6).blk t).view.emb (ix2 p q))
  refine (entry_eq (V c main_arg0) (V c main_v18) (V c main_v8) (V c main_arg1) (V c main_arg2) (V c main_v19) _ _ _ _ _ _
    ⟨t.val * 10000 + p.val, by omega⟩ p q ?_ ?_ ?_ ?_ ?_ ?_).trans ?_
  · intro k
    show V c main_arg0 (((cfg0.win 0).blk t).view.emb (ix2 p k)) = _
    congr 1; funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  · intro k
    show V c main_v18 (((cfg0.win 1).blk t).view.emb (ix2 p k)) = _
    congr 1; funext a; apply Fin.ext
    match a with
    | ⟨0, _⟩ => show win0_1.index t (0 : Fin 2) * 10000 + 1 * p.val = t.val * 10000 + p.val; omega
    | ⟨1, _⟩ => show win0_1.index t (1 : Fin 2) * 128 + 1 * k.val = k.val; omega
  · show V c main_v8 (((cfg0.win 2).blk t).view.emb (ix2 p (0 : Fin 1))) = _
    congr 1; funext a; apply Fin.ext
    match a with
    | ⟨0, _⟩ => show win0_2.index t (0 : Fin 2) * 10000 + 1 * p.val = t.val * 10000 + p.val; omega
    | ⟨1, _⟩ => show win0_2.index t (1 : Fin 2) * 1 + 1 * 0 = 0; omega
  · intro k
    show V c main_arg1 (((cfg0.win 3).blk t).view.emb (ix2 k q)) = _
    congr 1; funext a; apply Fin.ext
    match a with
    | ⟨0, _⟩ => show win0_3.index t (0 : Fin 2) * 128 + 1 * k.val = k.val; omega
    | ⟨1, _⟩ => show win0_3.index t (1 : Fin 2) * 128 + 1 * q.val = q.val; omega
  · intro k
    show V c main_arg2 (((cfg0.win 4).blk t).view.emb (ix2 k q)) = _
    congr 1; funext a; apply Fin.ext
    match a with
    | ⟨0, _⟩ => show win0_4.index t (0 : Fin 2) * 128 + 1 * k.val = k.val; omega
    | ⟨1, _⟩ => show win0_4.index t (1 : Fin 2) * 128 + 1 * q.val = q.val; omega
  · show V c main_v19 (((cfg0.win 5).blk t).view.emb (ix2 (0 : Fin 1) q)) = _
    congr 1; funext a; apply Fin.ext
    match a with
    | ⟨0, _⟩ => show win0_5.index t (0 : Fin 2) * 1 + 1 * 0 = 0; omega
    | ⟨1, _⟩ => show win0_5.index t (1 : Fin 2) * 128 + 1 * q.val = q.val; omega
  · congr 1; funext a; apply Fin.ext
    match a with
    | ⟨0, _⟩ => show t.val * 10000 + p.val = win0_6.index t (0 : Fin 2) * 10000 + 1 * p.val; omega
    | ⟨1, _⟩ => show q.val = win0_6.index t (1 : Fin 2) * 128 + 1 * q.val; omega

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v20).slice (win0_6.rect t)).set ↔ _
  rw [View.set_slice_whole, Rect.mem_set_unit]
  exact Iff.rfl

/-- Every entry of the output is in some point's block: row `r` is in point `r / 10000`'s. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by rw [show cfg0.N = 10 from N_0]; omega⟩, rfl⟩
  obtain ⟨e00, e01, e10, e11, e20, e21, e30, e31, e40, e41, e50, e51, e60, e61⟩ := idx_facts t
  refine ⟨t, flush0_6 t, ?_⟩
  rw [mem_blk]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 128 ≤ (i 1).val ∧ (i 1).val < win0_6.index t (1 : Fin 2) * 128 + 128; omega

/-- The output array after the grid: the layer of the arrays as the grid finds them. -/
theorem final (c : Dev nD) : (dat0 V c).arrAt 6 cfg0.N = G V c :=
  (dat0 V c).arrAt_eq_of_cover 6 (G V c) (fun t _ => flushed_eq V c t) cover

/-- The same, with each array the grid finds NAMED: whatever those buffers are known to hold. -/
theorem final_of (c : Dev nD) (h A : Feat) (inv : S100000x1.Idx → EReal) (Ws Wn : Wt) (brow : S1x128.Idx → EReal)
    (e0 : V c main_arg0 = h) (e1 : V c main_v18 = A) (e2 : V c main_v8 = inv) (e3 : V c main_arg1 = Ws)
    (e4 : V c main_arg2 = Wn) (e5 : V c main_v19 = brow) :
    (dat0 V c).arrAt 6 cfg0.N = layerRelu h (scaled A inv) Ws Wn (rowOf brow) := by
  rw [final V c]
  show layerRelu (V c main_arg0) (scaled (V c main_v18) (V c main_v8)) (V c main_arg1) (V c main_arg2) (rowOf (V c main_v19)) = _
  rw [e0, e1, e2, e3, e4, e5]

end Cert.KernelIdeal.Blocks0

end
-- ==== Proof.Blocks1.lean ====
/-
  The second layer's grid: what its output array holds once the ten blocks are written back.

  The grid has ten points; point `t` works on rows `10000·t … 10000·t + 9999` of the node features, of the neighbour
  sums and of the per-node reciprocal, on the whole of both weight matrices and of the bias row, and writes the same
  rows of the output. An entry `(p, q)` of point `t`'s block is therefore the layer's value at node `10000·t + p`,
  feature `q`, of the arrays as the grid finds them; the ten blocks tile the output, so the output array ends holding
  the layer of those arrays, entry by entry. Stated for ANY contents `V` of the buffers at the grid's entry.
-/
import proofs.«169644_j72232759984607_2_alg».proof.Proof.Gen.KernelIdeal.Frame
import proofs.«169644_j72232759984607_2_alg».proof.Proof.Payload
import proofs.«169644_j72232759984607_2_alg».proof.Proof.Layer
import Idealize.ShloMosaic.Lib.Pipeline.Value

set_option maxRecDepth 16384

noncomputable section

namespace Cert.KernelIdeal.Blocks1

open Idealize.ShloMosaic Idealize.ShloMosaic.TcCoe Idealize.ShloMosaic.ValueIdx Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the three row-blocked inputs move with the output, whose block index is the
    point's number; the weights and the bias sit at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer of the arrays as the grid finds them: the mean is the neighbour sum times the per-node factor. -/
abbrev G (c : Dev nD) : S100000x128.Idx → EReal :=
  layer (V c main_v20) (scaled (V c main_v30) (V c main_v8)) (V c main_arg4) (V c main_arg5)
    (rowOf (V c main_v31))

/-- One entry of a block, over any six loaded blocks that are the stated rows of whole arrays. -/
theorem entry_eq (h A : Feat) (inv : S100000x1.Idx → EReal) (Ws Wn : Wt) (brow : S1x128.Idx → EReal)
    (x0 x1 : Vec Ideal S10000x128 .f32) (x2 : Vec Ideal S10000x1 .f32) (x3 x4 : Vec Ideal S128x128 .f32) (x5 : Vec Ideal S1x128 .f32)
    (r : Fin 100000) (p : Fin 10000) (q : Fin 128)
    (h0 : ∀ k : Fin 128, x0 (ix2 p k) = h (ix2 r k)) (h1 : ∀ k : Fin 128, x1 (ix2 p k) = A (ix2 r k))
    (h2 : x2 (ix2 p (0 : Fin 1)) = inv (ix2 r (0 : Fin 1)))
    (h3 : ∀ k : Fin 128, x3 (ix2 k q) = Ws (ix2 k q)) (h4 : ∀ k : Fin 128, x4 (ix2 k q) = Wn (ix2 k q))
    (h5 : x5 (ix2 (0 : Fin 1) q) = brow (ix2 (0 : Fin 1) q)) :
    k1_pay1 x0 x1 x2 x3 x4 x5 (ix2 p q)
      = layer h (scaled A inv) Ws Wn (rowOf brow) (ix2 r q) := by
  rw [Body.pay_plain_at, layer_apply]
  simp only [layerAt, scaled_apply, rowOf_apply, h0, h1, h2, h3, h4, h5]

/-- What point `t` writes back is block `t` of the layer of the arrays as the grid finds them. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S10000x128) hz, View.ld_unit_zero (S := S10000x1) hz,
    View.ld_unit_zero (S := S128x128) hz, View.ld_unit_zero (S := S1x128) hz]
  obtain ⟨e00, e01, e10, e11, e20, e21, e30, e31, e40, e41, e50, e51, e60, e61⟩ := idx_facts t
  have ht : t.val < 10 := by have := t.isLt; have hN : cfg1.N = 10 := N_1; omega
  funext y
  obtain ⟨p, q, rfl⟩ : ∃ (p : Fin 10000) (q : Fin 128), y = ix2 p q := ⟨y 0, y 1, eq_ix2 y⟩
  have hp : p.val < 10000 := p.isLt
  show k1_pay1 (iblk1 V c 0 t) (iblk1 V c 1 t) (iblk1 V c 2 t) (iblk1 V c 3 t) (iblk1 V c 4 t) (iblk1 V c 5 t) (ix2 p q)
    = G V c (((cfg1.win 6).blk t).view.emb (ix2 p q))
  refine (entry_eq (V c main_v20) (V c main_v30) (V c main_v8) (V c main_arg4) (V c main_arg5) (V c main_v31) _ _ _ _ _ _
    ⟨t.val * 10000 + p.val, by omega⟩ p q ?_ ?_ ?_ ?_ ?_ ?_).trans ?_
  · intro k
    show V c main_v20 (((cfg1.win 0).blk t).view.emb (ix2 p k)) = _
    congr 1; funext a; apply Fin.ext
    match a with
    | ⟨0, _⟩ => show win1_0.index t (0 : Fin 2) * 10000 + 1 * p.val = t.val * 10000 + p.val; omega
    | ⟨1, _⟩ => show win1_0.index t (1 : Fin 2) * 128 + 1 * k.val = k.val; omega
  · intro k
    show V c main_v30 (((cfg1.win 1).blk t).view.emb (ix2 p k)) = _
    congr 1; funext a; apply Fin.ext
    match a with
    | ⟨0, _⟩ => show win1_1.index t (0 : Fin 2) * 10000 + 1 * p.val = t.val * 10000 + p.val; omega
    | ⟨1, _⟩ => show win1_1.index t (1 : Fin 2) * 128 + 1 * k.val = k.val; omega
  · show V c main_v8 (((cfg1.win 2).blk t).view.emb (ix2 p (0 : Fin 1))) = _
    congr 1; funext a; apply Fin.ext
    match a with
    | ⟨0, _⟩ => show win1_2.index t (0 : Fin 2) * 10000 + 1 * p.val = t.val * 10000 + p.val; omega
    | ⟨1, _⟩ => show win1_2.index t (1 : Fin 2) * 1 + 1 * 0 = 0; omega
  · intro k
    show V c main_arg4 (((cfg1.win 3).blk t).view.emb (ix2 k q)) = _
    congr 1; funext a; apply Fin.ext
    match a with
    | ⟨0, _⟩ => show win1_3.index t (0 : Fin 2) * 128 + 1 * k.val = k.val; omega
    | ⟨1, _⟩ => show win1_3.index t (1 : Fin 2) * 128 + 1 * q.val = q.val; omega
  · intro k
    show V c main_arg5 (((cfg1.win 4).blk t).view.emb (ix2 k q)) = _
    congr 1; funext a; apply Fin.ext
    match a with
    | ⟨0, _⟩ => show win1_4.index t (0 : Fin 2) * 128 + 1 * k.val = k.val; omega
    | ⟨1, _⟩ => show win1_4.index t (1 : Fin 2) * 128 + 1 * q.val = q.val; omega
  · show V c main_v31 (((cfg1.win 5).blk t).view.emb (ix2 (0 : Fin 1) q)) = _
    congr 1; funext a; apply Fin.ext
    match a with
    | ⟨0, _⟩ => show win1_5.index t (0 : Fin 2) * 1 + 1 * 0 = 0; omega
    | ⟨1, _⟩ => show win1_5.index t (1 : Fin 2) * 128 + 1 * q.val = q.val; omega
  · congr 1; funext a; apply Fin.ext
    match a with
    | ⟨0, _⟩ => show t.val * 10000 + p.val = win1_6.index t (0 : Fin 2) * 10000 + 1 * p.val; omega
    | ⟨1, _⟩ => show q.val = win1_6.index t (1 : Fin 2) * 128 + 1 * q.val; omega

/-- An index of the output array is in point `t`'s block iff each coordinate is in the block's range on its axis. -/
theorem mem_blk (t : Fin cfg1.N) (i : S100000x128.Idx) :
    i ∈ ((cfg1.win 6).blk t).view.set ↔ ∀ a : Fin 2, win1_6.index t a * S10000x128.size a ≤ (i a).val
      ∧ (i a).val < win1_6.index t a * S10000x128.size a + S10000x128.size a := by
  show i ∈ ((View.whole main_v32).slice (win1_6.rect t)).set ↔ _
  rw [View.set_slice_whole, Rect.mem_set_unit]
  exact Iff.rfl

/-- Every entry of the output is in some point's block: row `r` is in point `r / 10000`'s. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by rw [show cfg1.N = 10 from N_1]; omega⟩, rfl⟩
  obtain ⟨e00, e01, e10, e11, e20, e21, e30, e31, e40, e41, e50, e51, e60, e61⟩ := idx_facts t
  refine ⟨t, flush1_6 t, ?_⟩
  rw [mem_blk]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 128 ≤ (i 1).val ∧ (i 1).val < win1_6.index t (1 : Fin 2) * 128 + 128; omega

/-- The output array after the grid: the layer of the arrays as the grid finds them. -/
theorem final (c : Dev nD) : (dat1 V c).arrAt 6 cfg1.N = G V c :=
  (dat1 V c).arrAt_eq_of_cover 6 (G V c) (fun t _ => flushed_eq V c t) cover

/-- The same, with each array the grid finds NAMED: whatever those buffers are known to hold. -/
theorem final_of (c : Dev nD) (h A : Feat) (inv : S100000x1.Idx → EReal) (Ws Wn : Wt) (brow : S1x128.Idx → EReal)
    (e0 : V c main_v20 = h) (e1 : V c main_v30 = A) (e2 : V c main_v8 = inv) (e3 : V c main_arg4 = Ws)
    (e4 : V c main_arg5 = Wn) (e5 : V c main_v31 = brow) :
    (dat1 V c).arrAt 6 cfg1.N = layer h (scaled A inv) Ws Wn (rowOf brow) := by
  rw [final V c]
  show layer (V c main_v20) (scaled (V c main_v30) (V c main_v8)) (V c main_arg4) (V c main_arg5) (rowOf (V c main_v31)) = _
  rw [e0, e1, e2, e3, e4, e5]

end Cert.KernelIdeal.Blocks1

end
-- ==== Proof.KernelValue.lean ====
/-
  What the idealized kernel program's result buffer holds after the run, as a function of the arguments.

  The first grid writes the rectified layer of the inputs, with the mean formed by the reciprocal column; the host
  forms the neighbour sum of that array; the second grid writes the plain layer of it. Composed:

      hidden = relu (layer x (agg x · 1/d) Wself1 Wneigh1 b1)
      result =       layer hidden (agg hidden · 1/d) Wself2 Wneigh2 b2.
-/
import proofs.«169644_j72232759984607_2_alg».proof.Proof.KernelRun
import proofs.«169644_j72232759984607_2_alg».proof.Proof.KernelHost
import proofs.«169644_j72232759984607_2_alg».proof.Proof.Blocks0
import proofs.«169644_j72232759984607_2_alg».proof.Proof.Blocks1

set_option maxRecDepth 16384

noncomputable section

namespace Cert.KernelIdeal.KValue

open Idealize.ShloMosaic Idealize.ShloMosaic.TcCoe Idealize.SL.Sem
open Idealize.ShloMosaic.Pipeline (Dat)
open Cert.KernelIdeal Cert.KernelIdeal.Gen Cert.KernelIdeal.HostVal Cert.Sage

/-- The hidden features, of the arguments. -/
def hiddenK (x : (⟨S100000x128, .f32⟩ : BufTy).Contents (Elt Ideal)) (Ws Wn : (⟨S128x128, .f32⟩ : BufTy).Contents (Elt Ideal)) (b : (⟨S128, .f32⟩ : BufTy).Contents (Elt Ideal))
    (src dst : (⟨S1600000, .i32⟩ : BufTy).Contents (Elt Ideal)) : Feat :=
  layerRelu x (scaled (aggOf x src dst) (recipOf dst)) Ws Wn (rowOf (biasRow b))

/-- The result, of the arguments. -/
def outK (x : (⟨S100000x128, .f32⟩ : BufTy).Contents (Elt Ideal)) (Ws1 Wn1 : (⟨S128x128, .f32⟩ : BufTy).Contents (Elt Ideal)) (b1 : (⟨S128, .f32⟩ : BufTy).Contents (Elt Ideal))
    (Ws2 Wn2 : (⟨S128x128, .f32⟩ : BufTy).Contents (Elt Ideal)) (b2 : (⟨S128, .f32⟩ : BufTy).Contents (Elt Ideal)) (src dst : (⟨S1600000, .i32⟩ : BufTy).Contents (Elt Ideal)) : Feat :=
  layer (hiddenK x Ws1 Wn1 b1 src dst) (scaled (aggOf (hiddenK x Ws1 Wn1 b1 src dst) src dst) (recipOf dst)) Ws2 Wn2
    (rowOf (biasRow b2))

variable (m : (ℓ : Loc nD τ sig) → Buf (Elt Ideal) ℓ) (ρ : Dev nD → PrngReg)

/-- The first grid's output array is the hidden features. -/
theorem hidden_eq (c : Dev nD) : (dat0 (V1 m ρ) c).arrAt 6 cfg0.N
    = hiddenK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) :=
  Blocks0.final_of (V1 m ρ) c _ _ _ _ _ _ (V1_arg0 m ρ c) (V1_agg m ρ c) (V1_recip m ρ c) (V1_arg1 m ρ c) (V1_arg2 m ρ c)
    (V1_bias m ρ c)

/-- The second grid's output array is the result. -/
theorem out_eq (c : Dev nD) : (dat1 (V3 m ρ) c).arrAt 6 cfg1.N
    = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  Blocks1.final_of (V3 m ρ) c _ _ _ _ _ _ ((V3_hidden m ρ c).trans (hidden_eq m ρ c))
    ((V3_agg m ρ c).trans (congrArg (fun H => aggOf H (m ((c.tc : Thread nD τ).loc main_arg7)) (m ((c.tc : Thread nD τ).loc main_arg8))) (hidden_eq m ρ c)))
    (V3_recip m ρ c) (V3_arg4 m ρ c) (V3_arg5 m ρ c) (V3_bias m ρ c)

/-- The run: the result buffer ends at the result function of the arguments, the arguments unchanged. -/
theorem run : θ_run defs (onTc (τ := τ) (main (F := Ideal))) ⟨m, fun _ => 0, ρ⟩ (fun r => ∀ c : Dev nD,
      r.2.mem ((c.tc : Thread nD τ).loc main_v32)
        = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨(h c).1.trans (((W4_arr m ρ c 6 : W4 m ρ c (Proc.devRef .tc main_v32) = _)).trans (out_eq m ρ c)), (h c).2⟩)
    (Cert.KernelIdeal.Run.run_result m ρ)

end Cert.KernelIdeal.KValue

end
-- ==== Proof.RefValue.lean ====
/-
  The reference's two layers, index by index.

  Each layer of the reference is `h · Wself + (A / d) · Wneigh + b` with `A` the neighbour sum of `h` (a gather of rows
  followed by a scatter-add, carried here as one function and never opened), `d = max(deg, 1)` broadcast along the
  features, and `b` broadcast along the nodes. Read at node `p`, feature `q`: the two matrix products are sums over the
  128 contracted positions, the quotient is taken entry by entry, and the broadcasts read the node's degree and the
  feature's bias. The first layer is rectified; the second layer's neighbour sum is the SAME function of the hidden
  features that the first layer's is of the inputs.
-/
import proofs.«169644_j72232759984607_2_alg».proof.Proof.Gen.ReferenceIdeal.Read
import proofs.«169644_j72232759984607_2_alg».proof.Proof.Layer

noncomputable section

namespace Cert.ReferenceIdeal.RefValue

open Idealize.ShloMosaic Idealize.ShloMosaic.ValueIdx
open Cert.ReferenceIdeal Cert.ReferenceIdeal.Gen Cert.ReferenceIdeal.Read Cert.Sage

variable (x0 : (⟨S100000x128, .f32⟩ : BufTy).Contents (Elt Ideal)) (x1 x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal)) (x7 x8 : (⟨S1600000, .i32⟩ : BufTy).Contents (Elt Ideal))

/-- The clamped in-degree of node `r`: the degree (a scatter-add of ones, not opened) or one, whichever is larger. -/
theorem clamp_apply (r : Fin 100000) :
    val_main_v15 (F := Ideal) x8 (ix1 r) = max (val_main_v3 (F := Ideal) x8 (ix1 r)) 1 := by
  rw [val_main_v15_apply, val_main_v14_apply, val_main_cst_3_apply, Ideal.maximumf_def, Ideal.ofBits_def, Ideal.ofBits_one_f32]

/-- The first layer's mean: the neighbour sum over the clamped degree, node by node. -/
theorem mean_first : val_main_v18 (F := Ideal) x0 x7 x8
    = meanByQuot (val_main_v13 (F := Ideal) x0 x7 x8) (fun r => max (val_main_v3 (F := Ideal) x8 (ix1 r)) 1) := by
  funext j
  obtain ⟨p, k, rfl⟩ : ∃ (p : Fin 100000) (k : Fin 128), j = ix2 p k := ⟨j 0, j 1, eq_ix2 j⟩
  have ed : idx_main_v16 (idx_main_v17 (ix2 p k)) = ix1 p := funext fun a => Fin.ext (by
    match a with | ⟨0, _⟩ => rfl)
  rw [val_main_v18_apply, val_main_v17_apply, val_main_v16_apply, ed, clamp_apply, Ideal.hostDivf_def, meanByQuot_apply]

/-- The first layer before the rectifier, at node `p`, feature `q`. -/
theorem first_pre_at (p : Fin 100000) (q : Fin 128) : val_main_v24 (F := Ideal) x0 x1 x2 x3 x7 x8 (ix2 p q)
    = layerAt x0 (val_main_v18 (F := Ideal) x0 x7 x8) x1 x2 (fun q => x3 (ix1 q)) p q := by
  have el19 : ∀ k : Fin 128, lidx_main_v19 (ix2 p q) k = ix2 p k := fun k => funext fun a => Fin.ext (by
    match a with | ⟨0, _⟩ => rfl | ⟨1, _⟩ => rfl)
  have er19 : ∀ k : Fin 128, ridx_main_v19 (ix2 p q) k = ix2 k q := fun k => funext fun a => Fin.ext (by
    match a with | ⟨0, _⟩ => rfl | ⟨1, _⟩ => rfl)
  have el20 : ∀ k : Fin 128, lidx_main_v20 (ix2 p q) k = ix2 p k := fun k => funext fun a => Fin.ext (by
    match a with | ⟨0, _⟩ => rfl | ⟨1, _⟩ => rfl)
  have er20 : ∀ k : Fin 128, ridx_main_v20 (ix2 p q) k = ix2 k q := fun k => funext fun a => Fin.ext (by
    match a with | ⟨0, _⟩ => rfl | ⟨1, _⟩ => rfl)
  have eb : idx_main_v22 (idx_main_v23 (ix2 p q)) = ix1 q := funext fun a => Fin.ext (by
    match a with | ⟨0, _⟩ => rfl)
  rw [val_main_v24_apply, val_main_v21_apply, val_main_v19_apply, val_main_v20_apply, val_main_v23_apply, val_main_v22_apply, eb]
  simp only [el19, er19, el20, er20, Ideal.addf_def, layerAt]

/-- The hidden features: the first layer, rectified. -/
theorem hidden : val_main_v25 (F := Ideal) x0 x1 x2 x3 x7 x8
    = layerRelu x0 (val_main_v18 (F := Ideal) x0 x7 x8) x1 x2 (fun q => x3 (ix1 q)) := by
  funext i
  obtain ⟨p, q, rfl⟩ : ∃ (p : Fin 100000) (q : Fin 128), i = ix2 p q := ⟨i 0, i 1, eq_ix2 i⟩
  rw [val_main_v25_apply, val_main_call0_v0_apply, val_main_call0_cst_apply, first_pre_at, layerRelu_apply,
    Ideal.maximumf_def, Ideal.ofBits_def, Ideal.ofBits_zero_f32]

/-- The second layer's mean. -/
theorem mean_second : val_main_v44 (F := Ideal) x0 x1 x2 x3 x7 x8
    = meanByQuot (val_main_v39 (F := Ideal) x0 x1 x2 x3 x7 x8) (fun r => max (val_main_v3 (F := Ideal) x8 (ix1 r)) 1) := by
  funext j
  obtain ⟨p, k, rfl⟩ : ∃ (p : Fin 100000) (k : Fin 128), j = ix2 p k := ⟨j 0, j 1, eq_ix2 j⟩
  have ed : idx_main_v42 (idx_main_v43 (ix2 p k)) = ix1 p := funext fun a => Fin.ext (by
    match a with | ⟨0, _⟩ => rfl)
  have ec : val_main_v41 (F := Ideal) x8 (ix1 p) = max (val_main_v3 (F := Ideal) x8 (ix1 p)) 1 := clamp_apply x8 p
  rw [val_main_v44_apply, val_main_v43_apply, val_main_v42_apply, ed, ec, Ideal.hostDivf_def, meanByQuot_apply]

/-- The second layer, over the hidden features. -/
theorem second : val_main_v50 (F := Ideal) x0 x1 x2 x3 x4 x5 x6 x7 x8
    = layer (val_main_v25 (F := Ideal) x0 x1 x2 x3 x7 x8) (val_main_v44 (F := Ideal) x0 x1 x2 x3 x7 x8) x4 x5
        (fun q => x6 (ix1 q)) := by
  funext i
  obtain ⟨p, q, rfl⟩ : ∃ (p : Fin 100000) (q : Fin 128), i = ix2 p q := ⟨i 0, i 1, eq_ix2 i⟩
  have el45 : ∀ k : Fin 128, lidx_main_v45 (ix2 p q) k = ix2 p k := fun k => funext fun a => Fin.ext (by
    match a with | ⟨0, _⟩ => rfl | ⟨1, _⟩ => rfl)
  have er45 : ∀ k : Fin 128, ridx_main_v45 (ix2 p q) k = ix2 k q := fun k => funext fun a => Fin.ext (by
    match a with | ⟨0, _⟩ => rfl | ⟨1, _⟩ => rfl)
  have el46 : ∀ k : Fin 128, lidx_main_v46 (ix2 p q) k = ix2 p k := fun k => funext fun a => Fin.ext (by
    match a with | ⟨0, _⟩ => rfl | ⟨1, _⟩ => rfl)
  have er46 : ∀ k : Fin 128, ridx_main_v46 (ix2 p q) k = ix2 k q := fun k => funext fun a => Fin.ext (by
    match a with | ⟨0, _⟩ => rfl | ⟨1, _⟩ => rfl)
  have eb : idx_main_v48 (idx_main_v49 (ix2 p q)) = ix1 q := funext fun a => Fin.ext (by
    match a with | ⟨0, _⟩ => rfl)
  rw [val_main_v50_apply, val_main_v47_apply, val_main_v45_apply, val_main_v46_apply, val_main_v49_apply, val_main_v48_apply, eb,
    layer_apply]
  simp only [el45, er45, el46, er46, Ideal.addf_def, layerAt]

end Cert.ReferenceIdeal.RefValue

end
-- ==== Proof.Bridge.lean ====
/-
  The kernel's result function and the reference's are one function of the arguments.

  Both sides carry the same gather and scatter-add chains (the neighbour sum of a feature array; the in-degree),
  which are identified as whole functions and never opened. What remains differs in three places, each read at an
  index: the kernel's reciprocal column is `1 / max(deg, 1)` node by node; the kernel's bias row is the bias; and the
  neighbour sum times that reciprocal is the neighbour sum divided by the clamped degree, because the clamped degree
  is at least one and so is not zero. The first layer's outputs are then equal as arrays, so the second layer's
  neighbour sums are the same function applied to equal arrays.
-/
import proofs.«169644_j72232759984607_2_alg».proof.Proof.KernelValue
import proofs.«169644_j72232759984607_2_alg».proof.Proof.RefValue
import Idealize.ShloMosaic.Lib.Pipeline.Value

noncomputable section

namespace Cert.Bridge

open Idealize.ShloMosaic Idealize.ShloMosaic.ValueIdx Cert.Sage
open Cert.KernelIdeal.HostVal Cert.KernelIdeal.KValue
open Cert.ReferenceIdeal.Read Cert.ReferenceIdeal.RefValue

variable (x : (⟨Cert.KernelIdeal.S100000x128, .f32⟩ : BufTy).Contents (Elt Ideal))
  (Ws1 Wn1 Ws2 Wn2 : (⟨Cert.KernelIdeal.S128x128, .f32⟩ : BufTy).Contents (Elt Ideal))
  (b1 b2 : (⟨Cert.KernelIdeal.S128, .f32⟩ : BufTy).Contents (Elt Ideal))
  (src dst : (⟨Cert.KernelIdeal.S1600000, .i32⟩ : BufTy).Contents (Elt Ideal))

/-- The neighbour sum is the same chain of host operations in both programs. -/
theorem agg_eq (h : (⟨Cert.KernelIdeal.S100000x128, .f32⟩ : BufTy).Contents (Elt Ideal)) :
    aggOf h src dst = val_main_v13 (F := Ideal) h src dst := by
  unfold aggOf val_main_v13 val_main_v11 val_main_cst_2 val_main_v12 val_main_v10 val_main_v9 val_main_v8 val_main_v5
    val_main_v4 val_main_c val_main_v7 val_main_v6 val_main_c_1
  rfl

/-- So is the in-degree. -/
theorem deg_eq : Host.scatterAdd (F := Ideal) Cert.KernelIdeal.scatter_S100000_S1600000x1_S1600000_n_0_0_1
      (broadcastInDim Cert.KernelIdeal.S100000 ![] Cert.KernelIdeal.Facts₀.bcast_S_S100000 (constant Cert.KernelIdeal.S_ .f32 0x00000000#32))
      (broadcastInDim Cert.KernelIdeal.S1600000x1 ![0] Cert.KernelIdeal.Facts₀.bcast_S1600000_S1600000x1_0 dst)
      (broadcastInDim Cert.KernelIdeal.S1600000 ![] Cert.KernelIdeal.Facts₀.bcast_S_S1600000 (constant Cert.KernelIdeal.S_ .f32 0x3F800000#32))
    = val_main_v3 (F := Ideal) dst := by
  unfold val_main_v3 val_main_v1 val_main_cst_0 val_main_v2 val_main_v0 val_main_cst
  rfl

/-- The second neighbour sum of the reference is the first's chain, of the hidden features. -/
theorem agg_second (x0 : (⟨Cert.ReferenceIdeal.S100000x128, .f32⟩ : BufTy).Contents (Elt Ideal))
    (x1 x2 : (⟨Cert.ReferenceIdeal.S128x128, .f32⟩ : BufTy).Contents (Elt Ideal)) (x3 : (⟨Cert.ReferenceIdeal.S128, .f32⟩ : BufTy).Contents (Elt Ideal))
    (x7 x8 : (⟨Cert.ReferenceIdeal.S1600000, .i32⟩ : BufTy).Contents (Elt Ideal)) :
    val_main_v39 (F := Ideal) x0 x1 x2 x3 x7 x8 = val_main_v13 (F := Ideal) (val_main_v25 (F := Ideal) x0 x1 x2 x3 x7 x8) x7 x8 := by
  unfold val_main_v39 val_main_v37 val_main_cst_8 val_main_v38 val_main_v36 val_main_v35 val_main_v34 val_main_v31
    val_main_v30 val_main_c_6 val_main_v33 val_main_v32 val_main_c_7
    val_main_v13 val_main_v11 val_main_cst_2 val_main_v12 val_main_v10 val_main_v9 val_main_v8 val_main_v5
    val_main_v4 val_main_c val_main_v7 val_main_v6 val_main_c_1
  rfl

/-- The host's quotient of two arrays, at an index: the quotient of the entries. -/
theorem hostDiv_at {s : Shape} {φ : FTy} (a b : FVec Ideal s φ) (i : s.Idx) : Host.divf a b i = Ideal.div (a i) (b i) := rfl

/-- The splat of one, at a node: one. -/
theorem ones_at (r : Fin 100000) :
    broadcastInDim Cert.KernelIdeal.S100000 ![] Cert.KernelIdeal.Facts₀.bcast_S_S100000 (constant (F := Ideal) Cert.KernelIdeal.S_ .f32 0x3F800000#32) (ix1 r) = 1 :=
  (broadcastInDim_apply _ _ _ (ix1 r) ix0 (fun a => a.elim0)).trans (by rw [constant_apply]; exact Ideal.ofBits_one_f32)

/-- The kernel's reciprocal column at node `r`: one over the clamped in-degree. -/
theorem recip_at (r : Fin 100000) :
    recipOf (F := Ideal) dst (ix2 r (0 : Fin 1)) = Ideal.div 1 (max (val_main_v3 (F := Ideal) dst (ix1 r)) 1) := by
  unfold recipOf degOf
  rw [shapeCast_apply _ _ (ix2 r (0 : Fin 1)) (ix1 r) (by rw [Shape.rowMajor_val_one, Shape.rowMajor_val_two]; show r.val = r.val * 1 + 0; omega)]
  rw [hostDiv_at, maximumf_apply, ones_at, deg_eq]

/-- The kernel's bias row at feature `q`: the bias. -/
theorem bias_at (b : (⟨Cert.KernelIdeal.S128, .f32⟩ : BufTy).Contents (Elt Ideal)) (q : Fin 128) :
    rowOf (biasRow (F := Ideal) b) q = b (ix1 q) := by
  unfold biasRow
  rw [rowOf_apply, shapeCast_apply _ _ (ix2 (0 : Fin 1) q) (ix1 q) (by rw [Shape.rowMajor_val_one, Shape.rowMajor_val_two]; show q.val = 0 * 128 + q.val; omega)]

/-- The mean by the reciprocal column is the mean by the quotient. -/
theorem mean_eq (h : (⟨Cert.KernelIdeal.S100000x128, .f32⟩ : BufTy).Contents (Elt Ideal)) :
    scaled (aggOf h src dst) (recipOf (F := Ideal) dst)
      = meanByQuot (val_main_v13 (F := Ideal) h src dst) (fun r => max (val_main_v3 (F := Ideal) dst (ix1 r)) 1) :=
  (scaled_eq_meanByRecip _ _ _ (recip_at dst)).trans
    ((meanByRecip_eq_meanByQuot _ (fun r => val_main_v3 (F := Ideal) dst (ix1 r))).trans (by rw [agg_eq]))

/-- The hidden features agree. -/
theorem hidden_eq : hiddenK x Ws1 Wn1 b1 src dst = val_main_v25 (F := Ideal) x Ws1 Wn1 b1 src dst := by
  have eb : rowOf (biasRow (F := Ideal) b1) = fun q => b1 (ix1 q) := funext (bias_at b1)
  unfold hiddenK
  rw [Cert.ReferenceIdeal.RefValue.hidden, Cert.ReferenceIdeal.RefValue.mean_first, mean_eq, eb]

/-- The results agree. -/
theorem out_eq : outK x Ws1 Wn1 b1 Ws2 Wn2 b2 src dst = val_main_v50 (F := Ideal) x Ws1 Wn1 b1 Ws2 Wn2 b2 src dst := by
  have eb : rowOf (biasRow (F := Ideal) b2) = fun q => b2 (ix1 q) := funext (bias_at b2)
  unfold outK
  rw [Cert.ReferenceIdeal.RefValue.second, Cert.ReferenceIdeal.RefValue.mean_second, agg_second, hidden_eq, mean_eq, eb]

end Cert.Bridge

end
-- ==== Proof.lean ====
/-
  A two-layer mean-aggregation graph network, computed two ways, gives equal results on the extended reals.

  Each layer maps node features `h` to `h · Wself + M · Wneigh + b`, where `M` is the per-node mean of the features of
  the node's in-neighbours: the neighbour SUM `A` (source rows gathered, then scattered and added at the destinations)
  over the clamped in-degree `d = max(deg, 1)`. The first layer is rectified and feeds the second.

  One program forms the mean as `A · (1 / d)` with the reciprocal computed once, and evaluates each layer on a grid of
  ten row blocks; the other forms `A / d` and evaluates each layer whole. The matrix products are the same sums over
  the contracted axis; the gathers and scatter-adds are the same operations on both sides and are carried as whole
  functions; and `a · (1 / d) = a / d` for every extended real `a` because `d ≥ 1` is not zero. So the hidden features
  agree as arrays, the second neighbour sums are one function of equal arrays, and the results agree entry by entry.
  The finiteness of the inputs is not needed.

  The three frame claims: each program terminates without a fault and leaves its arguments unchanged. Nothing was
  rewritten between the word-level program and its idealization, so that claim is `True`.
-/
import proofs.«169644_j72232759984607_2_alg».proof.Defs
import proofs.«169644_j72232759984607_2_alg».proof.Proof.Gen.Kernel
import proofs.«169644_j72232759984607_2_alg».proof.Proof.Gen.Kernel.Skeleton
import proofs.«169644_j72232759984607_2_alg».proof.Proof.Gen.Kernel.Launch
import proofs.«169644_j72232759984607_2_alg».proof.Proof.Gen.Kernel.Points
import proofs.«169644_j72232759984607_2_alg».proof.Proof.Gen.Kernel.Frame
import proofs.«169644_j72232759984607_2_alg».proof.Proof.Gen.KernelIdeal
import proofs.«169644_j72232759984607_2_alg».proof.Proof.Gen.KernelIdeal.Skeleton
import proofs.«169644_j72232759984607_2_alg».proof.Proof.Gen.KernelIdeal.Launch
import proofs.«169644_j72232759984607_2_alg».proof.Proof.Gen.KernelIdeal.Points
import proofs.«169644_j72232759984607_2_alg».proof.Proof.Gen.KernelIdeal.Frame
import proofs.«169644_j72232759984607_2_alg».proof.Proof.Gen.ReferenceIdeal
import proofs.«169644_j72232759984607_2_alg».proof.Proof.Gen.Pre_finite_inputs
import proofs.«169644_j72232759984607_2_alg».proof.Proof.Gen.ReferenceIdeal.Run
import proofs.«169644_j72232759984607_2_alg».proof.Proof.Gen.ReferenceIdeal.Read
import proofs.«169644_j72232759984607_2_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Gen.frame m ρ

/-- The idealized program runs and keeps its arguments. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result array: the kernel's at its result
    function of the arguments, the reference's at its own, and the two functions are one. -/
theorem algebraic : Cert.algebraic_KernelIdeal_ReferenceIdeal := by
  intro m ρ m' ρ' _ hagree
  refine ⟨fun c => Cert.KernelIdeal.KValue.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v50_eq, a0, a1, a2, a3, a4, a5, a6, a7, a8]
  exact (Cert.Bridge.out_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
